-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x256x64 : Shape := ⟨4, ![16, 128, 256, 64]⟩
abbrev S64x64 : Shape := ⟨2, ![64, 64]⟩
abbrev S_ : Shape := ⟨0, ![]⟩

class Facts : Prop where
  bcast_S_S16x128x256x64 : S_.BroadcastsInDim S16x128x256x64 (![] : Fin 0 → Fin S16x128x256x64.rank)
  reducesTo_S16x128x256x64_S_d0_1_2_3 : S16x128x256x64.ReducesTo [0, 1, 2, 3] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S16x128x256x64 .f32) (main_arg1 : FVec F S64x64 .f32) : IVec S_ 1 :=
  let main_v0 : FVec F S16x128x256x64 .f32 := Host.absf main_arg0
  let main_cst : FVec F S_ .f32 := constant S_ .f32 0x7F800000#32
  let main_v1 : FVec F S16x128x256x64 .f32 := broadcastInDim S16x128x256x64 ![] bcast_S_S16x128x256x64 main_cst
  let main_v2 : IVec S16x128x256x64 1 := cmpf .olt main_v0 main_v1
  let main_c : IVec S_ 1 := constantI S_ 1 1#1
  let main_v3 : IVec S_ 1 := (fun x v => Host.reduce IntOp.andi x v reducesTo_S16x128x256x64_S_d0_1_2_3 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  main_v8
-- ==== Kernel.lean ====
abbrev S16x128x256x64 : Shape := ⟨4, ![16, 128, 256, 64]⟩
abbrev S64x64 : Shape := ⟨2, ![64, 64]⟩
abbrev S524288x64 : Shape := ⟨2, ![524288, 64]⟩
abbrev S262144x128 : Shape := ⟨2, ![262144, 128]⟩
abbrev S_ : Shape := ⟨0, ![]⟩
abbrev S64x128 : Shape := ⟨2, ![64, 128]⟩
abbrev S128x128 : Shape := ⟨2, ![128, 128]⟩
abbrev S64 : Shape := ⟨1, ![64]⟩
abbrev S128 : Shape := ⟨1, ![128]⟩
abbrev S1x128 : Shape := ⟨2, ![1, 128]⟩
abbrev S8192x128 : Shape := ⟨2, ![8192, 128]⟩

abbrev nBuf : Space → Nat
  | .hbm => 25
  | .vmem => 7
  | .smem => 0
  | _ => 0

abbrev bufTy : (tb : Table) → Fin (tcTables nBuf tb) → BufTy
  | .hbm, ⟨0, _⟩ => ⟨S16x128x256x64, .f32⟩
  | .hbm, ⟨1, _⟩ => ⟨S64x64, .f32⟩
  | .hbm, ⟨2, _⟩ => ⟨S524288x64, .f32⟩
  | .hbm, ⟨3, _⟩ => ⟨S262144x128, .f32⟩
  | .hbm, ⟨4, _⟩ => ⟨S64x64, .f32⟩
  | .hbm, ⟨5, _⟩ => ⟨S_, .f32⟩
  | .hbm, ⟨6, _⟩ => ⟨S64x64, .f32⟩
  | .hbm, ⟨7, _⟩ => ⟨S64x128, .f32⟩
  | .hbm, ⟨8, _⟩ => ⟨S64x128, .f32⟩
  | .hbm, ⟨9, _⟩ => ⟨S128x128, .f32⟩
  | .hbm, ⟨10, _⟩ => ⟨S_, .f32⟩
  | .hbm, ⟨11, _⟩ => ⟨S64x64, .f32⟩
  | .hbm, ⟨12, _⟩ => ⟨S_, .f32⟩
  | .hbm, ⟨13, _⟩ => ⟨S64x64, .f32⟩
  | .hbm, ⟨14, _⟩ => ⟨S64x128, .f32⟩
  | .hbm, ⟨15, _⟩ => ⟨S64x128, .f32⟩
  | .hbm, ⟨16, _⟩ => ⟨S128x128, .f32⟩
  | .hbm, ⟨17, _⟩ => ⟨S64x64, .f32⟩
  | .hbm, ⟨18, _⟩ => ⟨S_, .f32⟩
  | .hbm, ⟨19, _⟩ => ⟨S64, .f32⟩
  | .hbm, ⟨20, _⟩ => ⟨S128, .f32⟩
  | .hbm, ⟨21, _⟩ => ⟨S1x128, .f32⟩
  | .hbm, ⟨22, _⟩ => ⟨S262144x128, .f32⟩
  | .hbm, ⟨23, _⟩ => ⟨S524288x64, .f32⟩
  | .hbm, ⟨24, _⟩ => ⟨S16x128x256x64, .f32⟩
  | .local _ .vmem, ⟨0, _⟩ => ⟨S8192x128, .f32⟩
  | .local _ .vmem, ⟨1, _⟩ => ⟨S8192x128, .f32⟩
  | .local _ .vmem, ⟨2, _⟩ => ⟨S128x128, .f32⟩
  | .local _ .vmem, ⟨3, _⟩ => ⟨S128x128, .f32⟩
  | .local _ .vmem, ⟨4, _⟩ => ⟨S1x128, .f32⟩
  | .local _ .vmem, ⟨5, _⟩ => ⟨S8192x128, .f32⟩
  | .local _ .vmem, ⟨6, _⟩ => ⟨S8192x128, .f32⟩
  | _, _ => ⟨S16x128x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x128x256x64_S524288x64 : S16x128x256x64.ShapeCasts S524288x64
  shapeCasts_S524288x64_S262144x128 : S524288x64.ShapeCasts S262144x128
  transposes_S64x64_S64x64_1_0 : S64x64.Transposes [1, 0] S64x64
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  reducesTo_S64x64_S64_d1 : S64x64.ReducesTo [1] S64
  h_S_ : 0 < S_.numel
  concatenates_S64_S64_S128_d0 : Shape.Concatenates [S64, S64] S128 0
  bcast_S128_S1x128_1 : S128.BroadcastsInDim S1x128 (![1] : Fin 1 → Fin S1x128.rank)
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  shapeCasts_S262144x128_S524288x64 : S262144x128.ShapeCasts S524288x64
  shapeCasts_S524288x64_S16x128x256x64 : S524288x64.ShapeCasts S16x128x256x64
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192x128.size a ≤ S262144x128.size a
  hwx0_4 : ∀ i : grid0.Coords, EltTy.bits .f32 = 32 ∨ (Rect.block (s := S262144x128) S8192x128.size (cc0_transform_4 i) (hinb0_4 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_v1) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S8192x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x128x256x64 : Shape := ⟨4, ![16, 128, 256, 64]⟩
abbrev S64x64 : Shape := ⟨2, ![64, 64]⟩
abbrev S_ : Shape := ⟨0, ![]⟩
abbrev S16x128x256 : Shape := ⟨3, ![16, 128, 256]⟩
abbrev S16x128x256x1 : Shape := ⟨4, ![16, 128, 256, 1]⟩
abbrev S64 : Shape := ⟨1, ![64]⟩
abbrev S1x1x1x64 : Shape := ⟨4, ![1, 1, 1, 64]⟩

abbrev nBuf : Space → Nat
  | .hbm => 18
  | .vmem => 0
  | .smem => 0
  | _ => 0

abbrev bufTy : (tb : Table) → Fin (tcTables nBuf tb) → BufTy
  | .hbm, ⟨0, _⟩ => ⟨S16x128x256x64, .f32⟩
  | .hbm, ⟨1, _⟩ => ⟨S64x64, .f32⟩
  | .hbm, ⟨2, _⟩ => ⟨S16x128x256x64, .f32⟩
  | .hbm, ⟨3, _⟩ => ⟨S_, .f32⟩
  | .hbm, ⟨4, _⟩ => ⟨S16x128x256, .f32⟩
  | .hbm, ⟨5, _⟩ => ⟨S16x128x256x1, .f32⟩
  | .hbm, ⟨6, _⟩ => ⟨S64x64, .f32⟩
  | .hbm, ⟨7, _⟩ => ⟨S_, .f32⟩
  | .hbm, ⟨8, _⟩ => ⟨S64, .f32⟩
  | .hbm, ⟨9, _⟩ => ⟨S16x128x256x64, .f32⟩
  | .hbm, ⟨10, _⟩ => ⟨S_, .f32⟩
  | .hbm, ⟨11, _⟩ => ⟨S16x128x256x64, .f32⟩
  | .hbm, ⟨12, _⟩ => ⟨S16x128x256x64, .f32⟩
  | .hbm, ⟨13, _⟩ => ⟨S16x128x256x64, .f32⟩
  | .hbm, ⟨14, _⟩ => ⟨S16x128x256x64, .f32⟩
  | .hbm, ⟨15, _⟩ => ⟨S1x1x1x64, .f32⟩
  | .hbm, ⟨16, _⟩ => ⟨S16x128x256x64, .f32⟩
  | .hbm, ⟨17, _⟩ => ⟨S16x128x256x64, .f32⟩
  | _, _ => ⟨S16x128x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S16x128x256x64_S16x128x256_d3 : S16x128x256x64.ReducesTo [3] S16x128x256
  h_S_ : 0 < S_.numel
  bcast_S16x128x256_S16x128x256x1_0_1_2 : S16x128x256.BroadcastsInDim S16x128x256x1 (![0, 1, 2] : Fin 3 → Fin S16x128x256x1.rank)
  reducesTo_S64x64_S64_d1 : S64x64.ReducesTo [1] S64
  bcast_S_S16x128x256x64 : S_.BroadcastsInDim S16x128x256x64 (![] : Fin 0 → Fin S16x128x256x64.rank)
  bcast_S16x128x256x1_S16x128x256x64_0_1_2_3 : S16x128x256x1.BroadcastsInDim S16x128x256x64 (![0, 1, 2, 3] : Fin 4 → Fin S16x128x256x64.rank)
  bcast_S64_S1x1x1x64_3 : S64.BroadcastsInDim S1x1x1x64 (![3] : Fin 1 → Fin S1x1x1x64.rank)
  bcast_S1x1x1x64_S16x128x256x64_0_1_2_3 : S1x1x1x64.BroadcastsInDim S16x128x256x64 (![0, 1, 2, 3] : Fin 4 → Fin S16x128x256x64.rank)
  dot_S16x128x256x64_S64x64_S16x128x256x64_3_1_012_0_n_n_wf : DotDims.WF S16x128x256x64 S64x64 S16x128x256x64 [3] [1] [0, 1, 2] [0] [] []

variable [Facts₀]

def dot_S16x128x256x64_S64x64_S16x128x256x64_3_1_012_0_n_n : DotDims S16x128x256x64 S64x64 S16x128x256x64 where
  lhsContracting := [3]
  rhsContracting := [1]
  lhsNonContracting := [0, 1, 2]
  rhsNonContracting := [0]
  lhsBatch := []
  rhsBatch := []
  wf := dot_S16x128x256x64_S64x64_S16x128x256x64_3_1_012_0_n_n_wf

class Facts : Prop extends Facts₀ where

variable [Facts]
-- ==== Proof.LibPlainMatmul.lean ====
/-
  A plain matrix product read at one entry, over the extended reals.

  For the dimension numbers of an `M × K` by `K × N` product (`DotDims.plain M K N`: the left operand
  contracted on its second axis, the right one on its first, no batch axis) the entry `(p, q)` of the
  product is `∑ k, lhs (p, k) * rhs (k, q)`: for a kernel's matrix-unit product accumulated into the zero
  splat, and for the host's `dot_general`. The contraction index of such a product has one coordinate, and
  the operands' indices at output `(p, q)` and contraction coordinate `k` are `(p, k)` and `(k, q)`.
-/
import Idealize.ShloMosaic.Lib.ValueIdx
import Idealize.ShloMosaic.PureOps.Ideal.Laws

noncomputable section

open scoped BigOperators

namespace Cert.PlainMatmul

open Idealize.ShloMosaic Idealize.ShloMosaic.ValueIdx

variable {M K N : Nat}

/-- The contraction of a plain product runs over one axis … -/
theorem contr_rank : (DotDims.plain M K N).contr.rank = 1 := rfl

/-- … of extent `K`. -/
theorem contr_size : (DotDims.plain M K N).contr.size ⟨0, Nat.one_pos⟩ = K := rfl

/-- The contraction index whose one coordinate is `k`. -/
abbrev kidx (k : Fin K) : (DotDims.plain M K N).contr.Idx :=
  (contrEquiv1 (DotDims.plain M K N) K contr_rank contr_size).symm k

/-- At output `(p, q)` and contraction coordinate `k` the left operand is read at `(p, k)`. -/
theorem lhsIdx_eq (p : Fin M) (q : Fin N) (k : Fin K) :
    (DotDims.plain M K N).lhsIdx (ix2 p q) (kidx k) = ix2 p k := by
  funext a
  refine Fin.ext ?_
  match a with
  | ⟨0, h0⟩ =>
    unfold DotDims.lhsIdx
    rw [dif_neg (show ¬(⟨0, h0⟩ : Fin (⟨2, ![M, K]⟩ : Shape).rank) ∈ (DotDims.plain M K N).lhsBatch from List.not_mem_nil),
      dif_pos (show (⟨0, h0⟩ : Fin (⟨2, ![M, K]⟩ : Shape).rank) ∈ (DotDims.plain M K N).lhsNonContracting from
        List.mem_singleton.mpr rfl)]
    rfl
  | ⟨1, _⟩ =>
    exact ((DotDims.plain M K N).lhsIdx_val_of_single (cl := 1) rfl (ix2 p q) (kidx k)).trans
      (contrEquiv1_symm_val (DotDims.plain M K N) K contr_rank contr_size k)

/-- At output `(p, q)` and contraction coordinate `k` the right operand is read at `(k, q)`. -/
theorem rhsIdx_eq (p : Fin M) (q : Fin N) (k : Fin K) :
    (DotDims.plain M K N).rhsIdx (ix2 p q) (kidx k) = ix2 k q := by
  funext a
  refine Fin.ext ?_
  match a with
  | ⟨0, _⟩ =>
    exact ((DotDims.plain M K N).rhsIdx_val_of_single (cr := 0) rfl (ix2 p q) (kidx k)).trans
      (contrEquiv1_symm_val (DotDims.plain M K N) K contr_rank contr_size k)
  | ⟨1, h1⟩ =>
    unfold DotDims.rhsIdx
    rw [dif_neg (show ¬(⟨1, h1⟩ : Fin (⟨2, ![K, N]⟩ : Shape).rank) ∈ (DotDims.plain M K N).rhsBatch from List.not_mem_nil),
      dif_pos (show (⟨1, h1⟩ : Fin (⟨2, ![K, N]⟩ : Shape).rank) ∈ (DotDims.plain M K N).rhsNonContracting from
        List.mem_singleton.mpr rfl)]
    rfl

/-- The sum over the contraction index of a plain product is the sum over its one coordinate. -/
theorem sum_contr (f : (⟨2, ![M, K]⟩ : Shape).Idx → (⟨2, ![K, N]⟩ : Shape).Idx → EReal) (p : Fin M) (q : Fin N) :
    ∑ κ : (DotDims.plain M K N).contr.Idx, f ((DotDims.plain M K N).lhsIdx (ix2 p q) κ) ((DotDims.plain M K N).rhsIdx (ix2 p q) κ)
      = ∑ k : Fin K, f (ix2 p k) (ix2 k q) := by
  rw [← Equiv.sum_comp (contrEquiv1 (DotDims.plain M K N) K contr_rank contr_size).symm]
  refine Finset.sum_congr rfl fun k _ => ?_
  rw [lhsIdx_eq p q k, rhsIdx_eq p q k]

/-- A KERNEL'S PRODUCT into the zero accumulator, at entry `(p, q)`: the sum over `k` of `lhs (p, k) * rhs (k, q)`,
    whatever the operands' formats (a change of format is the identity on the extended reals). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (DotDims.plain M K N) prec lhs rhs (constant (F := Ideal) ⟨2, ![M, N]⟩ .f32 0x00000000#32) (ix2 p q)
      = ∑ k : Fin K, lhs (ix2 p k) * rhs (ix2 k q) := by
  show FloatOps.matmul (DotDims.plain M K N) prec lhs rhs (constant (F := Ideal) ⟨2, ![M, N]⟩ .f32 0x00000000#32) (ix2 p q) = _
  rw [Ideal.matmul_constant_zero_apply]
  exact sum_contr (fun a b => lhs a * rhs b) p q

/-- THE HOST'S `dot_general` with the same dimension numbers, at entry `(p, q)`: the same sum. -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (DotDims.plain M K N) prec lhs rhs (ix2 p q) = ∑ k : Fin K, lhs (ix2 p k) * rhs (ix2 k q) := by
  show FloatOps.dotGeneral (DotDims.plain M K N) prec .single lhs rhs (ix2 p q) = _
  rw [Ideal.dotGeneral_apply]
  exact sum_contr (fun a b => lhs a * rhs b) p q

end Cert.PlainMatmul

end
-- ==== Proof.DistSpec.lean ====
/-
  Squared Euclidean distances from every row of a table `x` to every row of a table `w`, over the extended reals.

  `x` has 16·128·256 rows of 64 entries (its first three axes number the rows) and `w` has 64 rows of 64 entries.
  Entry `(b, h, v, u)` of the result is  ‖x row‖² − 2 · ⟨x row, w row u⟩ + ‖w row u‖²,  each norm and the inner
  product a sum over the 64 entries of a row, each norm started from the word of 0.0: `sqDist`.

  The same numbers can be computed on a FOLDED table: two consecutive rows of `x` side by side as one row of 128
  entries, multiplied by 128 × 128 matrices that are block diagonal with two 64 × 64 blocks. A sum over the 128
  entries of a folded row is the sum over its left half plus the sum over its right half (`sum_halves`), and a block
  diagonal matrix makes one of the two halves a sum of zeros: `pairDist` is the folded expression.
-/
import Idealize.ShloMosaic.Lib.ValueIdx
import Idealize.ShloMosaic.PureOps.Ideal.Laws

noncomputable section

open scoped BigOperators

namespace Cert.SqDist

open Idealize.ShloMosaic Idealize.ShloMosaic.ValueIdx

/-- The table of points: 16·128·256 rows of 64 entries. -/
abbrev SX : Shape := ⟨4, ![16, 128, 256, 64]⟩
/-- The table of prototypes: 64 rows of 64 entries. -/
abbrev SW : Shape := ⟨2, ![64, 64]⟩
/-- The table of points unfolded to a matrix, one point per row. -/
abbrev SN : Shape := ⟨2, ![524288, 64]⟩
/-- The folded table: two points per row. -/
abbrev SP : Shape := ⟨2, ![262144, 128]⟩
/-- A block diagonal matrix on a folded row. -/
abbrev SB : Shape := ⟨2, ![128, 128]⟩
/-- One folded row. -/
abbrev SR : Shape := ⟨2, ![1, 128]⟩

/-- The word of 2.0. It is the same word on both sides and is never evaluated. -/
abbrev two : EReal := Ideal.ofBits .f32 0x40000000#32
/-- The word of 0.0, from which the host's sums start. -/
abbrev zero : EReal := Ideal.ofBits .f32 0x00000000#32

/-- Entry `d` of the row of `x` that the result index `i` belongs to. -/
abbrev xrow (i : SX.Idx) (d : Fin 64) : SX.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨d.val, d.isLt⟩
/-- Entry `d` of the row of `w` that the result index `i` names by its last coordinate. -/
abbrev wrow (i : SX.Idx) (d : Fin 64) : SW.Idx := fun a => match a with
  | ⟨0, _⟩ => ⟨(i 3).val, (i 3).isLt⟩
  | ⟨1, _⟩ => ⟨d.val, d.isLt⟩

/-- THE RESULT: ‖x row‖² − 2 ⟨x row, w row⟩ + ‖w row‖² at every index. -/
def sqDist (x : SX.Idx → EReal) (w : SW.Idx → EReal) (i : SX.Idx) : EReal :=
  ((zero + ∑ d : Fin 64, x (xrow i d) * x (xrow i d)) - two * ∑ d : Fin 64, x (xrow i d) * w (wrow i d))
    + (zero + ∑ d : Fin 64, w (wrow i d) * w (wrow i d))

/-- The folded expression at row `r`, lane `j`: the squares of the folded row against a matrix `Mbd`, less twice the
    folded row against a matrix `Wbd`, plus lane `j` of a row `W2`. -/
def pairDist (X : SP.Idx → EReal) (Wbd Mbd : SB.Idx → EReal) (W2 : SR.Idx → EReal) (j : SP.Idx) : EReal :=
  ((∑ k : Fin 128, (X (ix2 (j 0) k) * X (ix2 (j 0) k)) * Mbd (ix2 k (j 1)))
      - two * ∑ k : Fin 128, X (ix2 (j 0) k) * Wbd (ix2 k (j 1)))
    + W2 (ix2 (0 : Fin 1) (j 1))

/-- The left half of a folded row: lane `d`. -/
abbrev lo (d : Fin 64) : Fin 128 := ⟨d.val, by have := d.isLt; omega⟩
/-- The right half of a folded row: lane `64 + d`. -/
abbrev hi (d : Fin 64) : Fin 128 := ⟨64 + d.val, by have := d.isLt; omega⟩

/-- A sum over the 128 lanes of a folded row is the sum over its left half plus the sum over its right half. -/
theorem sum_halves (f : Fin 128 → EReal) : ∑ k : Fin 128, f k = (∑ d : Fin 64, f (lo d)) + ∑ d : Fin 64, f (hi d) := by
  have h := Fin.sum_univ_add (M := EReal) (a := 64) (b := 64) f
  rw [h]
  refine congrArg₂ (· + ·) (Finset.sum_congr rfl fun d _ => congrArg f (Fin.ext ?_))
    (Finset.sum_congr rfl fun d _ => congrArg f (Fin.ext ?_))
  · rfl
  · rfl

/-- The word of 1.0 is the number one. -/
theorem ofBits_one : Ideal.ofBits .f32 0x3F800000#32 = 1 := by
  simp [Ideal.ofBits, Ideal.ieee, -EReal.coe_mul]; norm_num

end Cert.SqDist

end
-- ==== Proof.KernelBody.lean ====
/-
  What the kernel body computes on one block, entry by entry.

  The body loads a block of 8192 folded rows `x`, two 128 × 128 matrices `wbd` and `mbd` and a row `w2`, and stores
  (x·x) · mbd − 2 · (x · wbd) + w2, both matrix products accumulated from zero. At entry `(p, q)` each product is the
  sum over the 128 lanes `k` of the left factor at `(p, k)` times the right factor at `(k, q)`, and the row is read at
  lane `q`.
-/
import proofs.«137258_j87582973100610_2_alg».proof.Proof.Gen.KernelIdeal.Skeleton
import proofs.«137258_j87582973100610_2_alg».proof.Proof.LibPlainMatmul
import proofs.«137258_j87582973100610_2_alg».proof.Proof.DistSpec
import Idealize.ShloMosaic.Lib.Pipeline.Value

noncomputable section

open scoped BigOperators

namespace Cert.SqDist.Body

open Idealize.ShloMosaic Idealize.ShloMosaic.ValueIdx Cert.KernelIdeal Cert.KernelIdeal.Gen Cert.SqDist

/-- The body's dimension numbers are those of a plain 8192 × 128 by 128 × 128 product. -/
theorem dims_plain : dot_S8192x128_S128x128_S8192x128_1_0_0_1_n_n = DotDims.plain 8192 128 128 := rfl

/-- The row `w2` broadcast down the 8192 rows of the block reads lane `q` of the row. -/
theorem row_bcast_apply (x3 : FVec Ideal S1x128 .f32) (p : Fin 8192) (q : Fin 128) :
    broadcastTo S8192x128 x3 broadcasts_S1x128_S8192x128 (ix2 p q) = x3 (ix2 (0 : Fin 1) q) :=
  broadcastTo_apply x3 broadcasts_S1x128_S8192x128 (ix2 p q) (ix2 (0 : Fin 1) q) (fun a => by
    match a with
    | ⟨0, _⟩ => show (0 : Nat) = if (1 : Nat) = 1 then 0 else _; rw [if_pos rfl]
    | ⟨1, _⟩ => show q.val = if (128 : Nat) = 1 then 0 else q.val; rw [if_neg (by decide)])

/-- THE BODY'S STORE at entry `(p, q)` of the block. -/
theorem pay_apply (x0 : Vec Ideal S8192x128 .f32) (x1 x2 : Vec Ideal S128x128 .f32) (x3 : Vec Ideal S1x128 .f32)
    (p : Fin 8192) (q : Fin 128) :
    k0_pay1 (F := Ideal) x0 x1 x2 x3 (ix2 p q)
      = ((∑ k : Fin 128, (x0 (ix2 p k) * x0 (ix2 p k)) * x2 (ix2 k q)) - two * ∑ k : Fin 128, x0 (ix2 p k) * x1 (ix2 k q))
        + x3 (ix2 (0 : Fin 1) q) := by
  unfold k0_pay1
  simp only [shapeCast_self]
  show (matmul dot_S8192x128_S128x128_S8192x128_1_0_0_1_n_n (some .fp32) (mulf x0 x0) x2 (constant (F := Ideal) S8192x128 .f32 0x00000000#32) (ix2 p q)
      - two * matmul dot_S8192x128_S128x128_S8192x128_1_0_0_1_n_n (some .fp32) x0 x1 (constant (F := Ideal) S8192x128 .f32 0x00000000#32) (ix2 p q))
      + broadcastTo S8192x128 x3 broadcasts_S1x128_S8192x128 (ix2 p q) = _
  rw [dims_plain, row_bcast_apply,
    Cert.PlainMatmul.matmul_zero_apply (M := 8192) (K := 128) (N := 128) (some .fp32) (mulf x0 x0) x2 p q,
    Cert.PlainMatmul.matmul_zero_apply (M := 8192) (K := 128) (N := 128) (some .fp32) x0 x1 p q]
  rfl

/-- The same at any index `y` of the block, by its two coordinates. -/
theorem pay_idx (x0 : Vec Ideal S8192x128 .f32) (x1 x2 : Vec Ideal S128x128 .f32) (x3 : Vec Ideal S1x128 .f32)
    (y : S8192x128.Idx) :
    k0_pay1 (F := Ideal) x0 x1 x2 x3 y
      = ((∑ k : Fin 128, (x0 (ix2 (y 0) k) * x0 (ix2 (y 0) k)) * x2 (ix2 k (y 1)))
          - two * ∑ k : Fin 128, x0 (ix2 (y 0) k) * x1 (ix2 k (y 1)))
        + x3 (ix2 (0 : Fin 1) (y 1)) := by
  obtain ⟨p, q, rfl⟩ : ∃ (p : Fin 8192) (q : Fin 128), y = ix2 p q := ⟨y 0, y 1, eq_ix2 y⟩
  exact pay_apply x0 x1 x2 x3 p q

end Cert.SqDist.Body

end
-- ==== Proof.KernelBlocks.lean ====
/-
  From the blocks to the whole folded table.

  The grid has 32 points. Point `t` reads rows 8192·t … 8192·t + 8191 of the folded table, the two matrices and the row
  whole, and writes back rows 8192·t … 8192·t + 8191 of the result. What it writes is the folded expression `pairDist`
  of the arrays the region finds, read on those rows; the 32 blocks of rows tile the 262144 rows, so the result array
  ends holding `pairDist` everywhere.
-/
import proofs.«137258_j87582973100610_2_alg».proof.Proof.Gen.KernelIdeal.Frame
import proofs.«137258_j87582973100610_2_alg».proof.Proof.KernelBody
import Idealize.ShloMosaic.Lib.Pipeline.Value

set_option maxRecDepth 16384

noncomputable section

open scoped BigOperators

namespace Cert.SqDist.Blocks

open Idealize.ShloMosaic Idealize.ShloMosaic.TcCoe Idealize.ShloMosaic.ValueIdx Idealize.SL.Sem
open Cert.KernelIdeal Cert.KernelIdeal.Gen Cert.SqDist
open Idealize.ShloMosaic.Pipeline (Dat)

variable (m : (ℓ : Loc nD τ sig) → Buf (Elt Ideal) ℓ)

/-- A block's rectangle starts at the origin of its staging buffer. -/
theorem origin : (![0, 0] : Fin 2 → Nat) = fun _ => 0 := funext fun a => by fin_cases a <;> rfl

/-- The block indices over the grid: the folded table and the result move down one block of rows per point, the two
    matrices and the row stay where they are. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `y 0`, lane `k` of point `t`'s block of the folded table is the table at the row the result's block has there. -/
theorem table_blk (c : Dev nD) (t : Fin cfg0.N) (y : S8192x128.Idx) (k : Fin 128) :
    iblk m c 0 t (ix2 (y 0) k) = V m c main_v1 (ix2 ((((cfg0.win 4).blk t).view.emb y) 0) k) := by
  show V m c main_v1 (((cfg0.win 0).blk t).view.emb (ix2 (y 0) k)) = _
  obtain ⟨e0, e1, -, -, -, -, -, -, e8, -⟩ := block_index t
  refine congrArg (V m c main_v1) (funext fun a => Fin.ext ?_)
  match a with
  | ⟨0, _⟩ => show win0_0.index t (0 : Fin 2) * 8192 + 1 * (y 0).val = win0_4.index t (0 : Fin 2) * 8192 + 1 * (y 0).val; omega
  | ⟨1, _⟩ => show win0_0.index t (1 : Fin 2) * 128 + 1 * k.val = k.val; omega

/-- Entry `(k, y 1)` of point `t`'s block of the first matrix is the matrix at `(k, lane)`. -/
theorem wbd_blk (c : Dev nD) (t : Fin cfg0.N) (y : S8192x128.Idx) (k : Fin 128) :
    iblk m c 1 t (ix2 k (y 1)) = V m c main_v6 (ix2 k ((((cfg0.win 4).blk t).view.emb y) 1)) := by
  show V m c main_v6 (((cfg0.win 1).blk t).view.emb (ix2 k (y 1))) = _
  obtain ⟨-, -, e2, e3, -, -, -, -, -, e9⟩ := block_index t
  refine congrArg (V m c main_v6) (funext fun a => Fin.ext ?_)
  match a with
  | ⟨0, _⟩ => show win0_1.index t (0 : Fin 2) * 128 + 1 * k.val = k.val; omega
  | ⟨1, _⟩ => show win0_1.index t (1 : Fin 2) * 128 + 1 * (y 1).val = win0_4.index t (1 : Fin 2) * 128 + 1 * (y 1).val; omega

/-- The same for the second matrix. -/
theorem mbd_blk (c : Dev nD) (t : Fin cfg0.N) (y : S8192x128.Idx) (k : Fin 128) :
    iblk m c 2 t (ix2 k (y 1)) = V m c main_v11 (ix2 k ((((cfg0.win 4).blk t).view.emb y) 1)) := by
  show V m c main_v11 (((cfg0.win 2).blk t).view.emb (ix2 k (y 1))) = _
  obtain ⟨-, -, -, -, e4, e5, -, -, -, e9⟩ := block_index t
  refine congrArg (V m c main_v11) (funext fun a => Fin.ext ?_)
  match a with
  | ⟨0, _⟩ => show win0_2.index t (0 : Fin 2) * 128 + 1 * k.val = k.val; omega
  | ⟨1, _⟩ => show win0_2.index t (1 : Fin 2) * 128 + 1 * (y 1).val = win0_4.index t (1 : Fin 2) * 128 + 1 * (y 1).val; omega

/-- Lane `y 1` of point `t`'s block of the row is the row at that lane. -/
theorem row_blk (c : Dev nD) (t : Fin cfg0.N) (y : S8192x128.Idx) :
    iblk m c 3 t (ix2 (0 : Fin 1) (y 1)) = V m c main_v15 (ix2 (0 : Fin 1) ((((cfg0.win 4).blk t).view.emb y) 1)) := by
  show V m c main_v15 (((cfg0.win 3).blk t).view.emb (ix2 (0 : Fin 1) (y 1))) = _
  obtain ⟨-, -, -, -, -, -, e6, e7, -, e9⟩ := block_index t
  refine congrArg (V m c main_v15) (funext fun a => Fin.ext ?_)
  match a with
  | ⟨0, _⟩ => show win0_3.index t (0 : Fin 2) * 1 + 1 * 0 = 0; omega
  | ⟨1, _⟩ => show win0_3.index t (1 : Fin 2) * 128 + 1 * (y 1).val = win0_4.index t (1 : Fin 2) * 128 + 1 * (y 1).val; omega

/-- WHAT POINT `t` WRITES BACK is its block of rows of the folded expression of the arrays the region finds. -/
theorem flushed_eq (c : Dev nD) (t : Fin cfg0.N) :
    (dats m 0 c).flushed 4 t = ((cfg0.win 4).blk t).view.read (Elt Ideal)
      (pairDist (V m c main_v1) (V m c main_v6) (V m c main_v11) (V m c main_v15)) := by
  show (cfg0.win 4).cut (grid0.coords t) ((dats m 0 c).after 4 t) = _
  rw [after0_4]
  unfold out0_4
  rw [View.canon_unit_zero origin]
  simp only [View.ld_unit_zero (S := S8192x128) origin, View.ld_unit_zero (S := S128x128) origin,
    View.ld_unit_zero (S := S1x128) origin]
  funext y
  show k0_pay1 (F := Ideal) (iblk m c 0 t) (iblk m c 1 t) (iblk m c 2 t) (iblk m c 3 t) y
    = pairDist (V m c main_v1) (V m c main_v6) (V m c main_v11) (V m c main_v15) (((cfg0.win 4).blk t).view.emb y)
  refine (Body.pay_idx (iblk m c 0 t) (iblk m c 1 t) (iblk m c 2 t) (iblk m c 3 t) y).trans ?_
  unfold pairDist
  rw [row_blk m c t y]
  refine congrArg₂ (· + ·) (congrArg₂ (· - ·) (Finset.sum_congr rfl fun k _ => ?_)
    (congrArg (two * ·) (Finset.sum_congr rfl fun k _ => ?_))) rfl
  · rw [table_blk m c t y k, mbd_blk m c t y k]
  · rw [table_blk m c t y k, wbd_blk m c t y k]

/-- An index of the result array is in point `t`'s block iff each coordinate is in the block's range on its axis. -/
theorem mem_blk (t : Fin cfg0.N) (i : S262144x128.Idx) :
    i ∈ ((cfg0.win 4).blk t).view.set ↔ ∀ a : Fin 2, win0_4.index t a * S8192x128.size a ≤ (i a).val
      ∧ (i a).val < win0_4.index t a * S8192x128.size a + S8192x128.size a := by
  show i ∈ ((View.whole main_v16).slice (win0_4.rect t)).set ↔ _
  rw [View.set_slice_whole, Rect.mem_set_unit]
  exact Iff.rfl

/-- Every row of the result array is in some point's block: row `r` is in block `r / 8192`. -/
theorem covered (i : S262144x128.Idx) :
    ∃ t : Fin cfg0.N, (cfg0.win 4).flush t = true ∧ i ∈ ((cfg0.win 4).blk t).view.set := by
  have hi0 : (i 0).val < 262144 := (i 0).isLt
  have hi1 : (i 1).val < 128 := (i 1).isLt
  have hN : cfg0.N = 32 := N_0
  let t : Fin cfg0.N := ⟨(i 0).val / 8192, by rw [hN]; omega⟩
  obtain ⟨-, -, -, -, -, -, -, -, e8, e9⟩ := block_index t
  have e8' : win0_4.index t (0 : Fin 2) = (i 0).val / 8192 := e8
  refine ⟨t, flush0_4 t, ?_⟩
  rw [mem_blk]
  intro a
  match a with
  | ⟨0, _⟩ => show win0_4.index t (0 : Fin 2) * 8192 ≤ (i 0).val ∧ (i 0).val < win0_4.index t (0 : Fin 2) * 8192 + 8192; omega
  | ⟨1, _⟩ => show win0_4.index t (1 : Fin 2) * 128 ≤ (i 1).val ∧ (i 1).val < win0_4.index t (1 : Fin 2) * 128 + 128; omega

/-- THE RESULT ARRAY after the region: the folded expression of the arrays the region finds. -/
theorem folded_final (c : Dev nD) :
    (dats m 0 c).arrAt 4 cfg0.N = pairDist (V m c main_v1) (V m c main_v6) (V m c main_v11) (V m c main_v15) :=
  (dats m 0 c).arrAt_eq_of_cover 4 _ (fun t _ => flushed_eq m c t) covered

end Cert.SqDist.Blocks

end
-- ==== Proof.KernelHost.lean ====
/-
  The host operations around the region, as terms of the two argument arrays.

  Before the region the host folds the table of points to two points per row (two reshapes), builds the two block
  diagonal 128 × 128 matrices (the transposed prototypes, resp. ones, in the two diagonal blocks and zeros elsewhere:
  three concatenations each) and the row of squared norms of the prototypes laid twice side by side. After the region
  it unfolds the result back to one point per row and to the four axes of the table (two reshapes).
-/
import proofs.«137258_j87582973100610_2_alg».proof.Proof.Gen.KernelIdeal.Frame
import proofs.«137258_j87582973100610_2_alg».proof.Proof.KernelBlocks
import Idealize.ShloMosaic.Lib.StableHlo.Run

set_option maxRecDepth 16384

noncomputable section

namespace Cert.SqDist.HostSide

open Idealize.ShloMosaic Idealize.ShloMosaic.TcCoe Idealize.ShloMosaic.ValueIdx Idealize.SL.Sem
open Idealize.ShloMosaic.StableHlo
open Cert.KernelIdeal Cert.KernelIdeal.Gen Cert.SqDist

/-- The table of points with two consecutive points per row. -/
def foldedTable (x : FVec Ideal S16x128x256x64 .f32) : FVec Ideal S262144x128 .f32 :=
  shapeCast S262144x128 (shapeCast S524288x64 x shapeCasts_S16x128x256x64_S524288x64) shapeCasts_S524288x64_S262144x128

/-- The 128 × 128 matrix with `A` in its two diagonal blocks and `Z` in the other two. -/
def blockDiag (A Z : FVec Ideal S64x64 .f32) : FVec Ideal S128x128 .f32 :=
  concatenate S128x128 0
    [⟨S64x128, concatenate S64x128 1 [⟨S64x64, A⟩, ⟨S64x64, Z⟩] concatenates_S64x64_S64x64_S64x128_d1⟩,
     ⟨S64x128, concatenate S64x128 1 [⟨S64x64, Z⟩, ⟨S64x64, A⟩] concatenates_S64x64_S64x64_S64x128_d1⟩]
    concatenates_S64x128_S64x128_S128x128_d0

/-- A 64 × 64 block filled with one word. -/
def fill (b : BitVec 32) : FVec Ideal S64x64 .f32 :=
  broadcastInDim S64x64 ![] bcast_S_S64x64 (constant (F := Ideal) S_ .f32 b)

/-- The transposed prototypes in the diagonal blocks. -/
def protoDiag (w : FVec Ideal S64x64 .f32) : FVec Ideal S128x128 .f32 :=
  blockDiag (transpose S64x64 [1, 0] w transposes_S64x64_S64x64_1_0) (fill 0x00000000#32)

/-- Ones in the diagonal blocks. -/
def onesDiag : FVec Ideal S128x128 .f32 := blockDiag (fill 0x3F800000#32) (fill 0x00000000#32)

/-- The squared norms of the prototypes … -/
def protoNorms (w : FVec Ideal S64x64 .f32) : FVec Ideal S64 .f32 :=
  Host.reduceAdd (mulf w w) (constant (F := Ideal) S_ .f32 0x00000000#32) reducesTo_S64x64_S64_d1 h_S_

/-- … laid twice side by side as one row of 128 lanes. -/
def normRow (w : FVec Ideal S64x64 .f32) : FVec Ideal S1x128 .f32 :=
  broadcastInDim S1x128 ![1] bcast_S128_S1x128_1
    (concatenate S128 0 [⟨S64, protoNorms w⟩, ⟨S64, protoNorms w⟩] concatenates_S64_S64_S128_d0)

/-- The folded result unfolded to the four axes of the table of points. -/
def unfolded (Y : FVec Ideal S262144x128 .f32) : FVec Ideal S16x128x256x64 .f32 :=
  shapeCast S16x128x256x64 (shapeCast S524288x64 Y shapeCasts_S262144x128_S524288x64) shapeCasts_S524288x64_S16x128x256x64

variable (m : (ℓ : Loc nD τ sig) → Buf (Elt Ideal) ℓ) (ρ : Dev nD → PrngReg)

/-- The region finds the folded table of points in its first operand … -/
theorem V_table (c : Dev nD) :
    (V m c main_v1 : S262144x128.Idx → EReal) = foldedTable (m ((c : Thread nD τ).loc main_arg0)) := by
  show StableHlo.after hostOps0 (fun b => m (c, b)) (Proc.devRef .tc main_v1) = _
  after_results
  rfl

/-- … the transposed prototypes on the block diagonal in its second … -/
theorem V_protoDiag (c : Dev nD) :
    (V m c main_v6 : S128x128.Idx → EReal) = protoDiag (m ((c : Thread nD τ).loc main_arg1)) := by
  show StableHlo.after hostOps0 (fun b => m (c, b)) (Proc.devRef .tc main_v6) = _
  after_results
  rfl

/-- … ones on the block diagonal in its third … -/
theorem V_onesDiag (c : Dev nD) : (V m c main_v11 : S128x128.Idx → EReal) = onesDiag := by
  show StableHlo.after hostOps0 (fun b => m (c, b)) (Proc.devRef .tc main_v11) = _
  after_results
  rfl

/-- … and the row of squared norms in its fourth. -/
theorem V_normRow (c : Dev nD) :
    (V m c main_v15 : S1x128.Idx → EReal) = normRow (m ((c : Thread nD τ).loc main_arg1)) := by
  show StableHlo.after hostOps0 (fun b => m (c, b)) (Proc.devRef .tc main_v15) = _
  after_results
  rfl

/-- THE KERNEL'S RESULT as one term of the two argument arrays. -/
def kernelResult (x : FVec Ideal S16x128x256x64 .f32) (w : FVec Ideal S64x64 .f32) : FVec Ideal S16x128x256x64 .f32 :=
  unfolded (pairDist (foldedTable x) (protoDiag w) onesDiag (normRow w))

/-- The lines after the region leave the program's result at the unfolded result array of the region. -/
theorem tail_result (c : Dev nD) :
    Pipeline.afterTail₀ cfgs (dats m) 0 (V0 m) [hostOps1] c main_v18
      = kernelResult (m ((c : Thread nD τ).loc main_arg0)) (m ((c : Thread nD τ).loc main_arg1)) := by
  unfold Pipeline.afterTail₀
  show StableHlo.after hostOps1 _ (Proc.devRef .tc main_v18) = _
  after_results
  have hA := (Pipeline.withArrays_arr spec0 launch0.win.arr_inj c (V0 m c) (fun w => (dats m 0 c).arrAt w cfg0.N) 4).trans
    (Blocks.folded_final m c)
  rw [V_table, V_protoDiag, V_onesDiag, V_normRow] at hA
  unfold kernelResult unfolded
  exact congrArg (fun Y => shapeCast S16x128x256x64 (shapeCast S524288x64 Y shapeCasts_S262144x128_S524288x64)
    shapeCasts_S524288x64_S16x128x256x64) hA

/-- THE KERNEL'S RUN: every weakly fair execution terminates with the result at `kernelResult` of the arguments and
    the arguments unchanged. -/
theorem run : θ_run defs (onTc (τ := τ) (main (F := Ideal))) ⟨m, fun _ => 0, ρ⟩ fun r => ∀ c : Dev nD,
      r.2.mem ((c.tc : Thread nD τ).loc main_v18)
        = kernelResult (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v18 (Pipeline.mem_restRefs_of main_v18 (by decide) (by decide))).trans (tail_result m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.SqDist.HostSide

end
-- ==== Proof.HostRead.lean ====
/-
  The host's terms read at an index.

  Lane `k` of a folded row is in its left half (`lo d`, the even point) or its right half (`hi d`, the odd point). A
  block diagonal matrix read at a row and a column in the same half is its diagonal block, in different halves its
  off-diagonal block; the transposed prototypes at `(d, u)` are the prototypes at `(u, d)`; a filled block is its word;
  the row of norms at lane `lo u` or `hi u` is the squared norm of prototype `u`. The folded table at row `r`, lane `k`
  and the unfolded result at an index are the entries at the same row-major position.
-/
import proofs.«137258_j87582973100610_2_alg».proof.Proof.KernelHost
import Idealize.ShloMosaic.Lib.Pipeline.Value

set_option maxRecDepth 16384

noncomputable section

open scoped BigOperators

namespace Cert.SqDist.HostSide

open Idealize.ShloMosaic Idealize.ShloMosaic.ValueIdx
open Cert.KernelIdeal Cert.KernelIdeal.Gen Cert.SqDist

/-! ## Concatenations of two halves -/

/-- Two 64 × 64 blocks side by side, read in the left block. -/
theorem cols_left (A B : FVec Ideal S64x64 .f32) (d e : Fin 64) :
    concatenate S64x128 1 [⟨S64x64, A⟩, ⟨S64x64, B⟩] concatenates_S64x64_S64x64_S64x128_d1 (ix2 d (lo e)) = A (ix2 d e) :=
  concatenate_pair_apply_left 1 A B concatenates_S64x64_S64x64_S64x128_d1 (ix2 d (lo e)) rfl (ix2 d e)
    (fun b => by match b with | ⟨0, _⟩ => rfl | ⟨1, _⟩ => rfl)

/-- Two 64 × 64 blocks side by side, read in the right block. -/
theorem cols_right (A B : FVec Ideal S64x64 .f32) (d e : Fin 64) :
    concatenate S64x128 1 [⟨S64x64, A⟩, ⟨S64x64, B⟩] concatenates_S64x64_S64x64_S64x128_d1 (ix2 d (hi e)) = B (ix2 d e) :=
  concatenate_pair_apply_right 1 A B concatenates_S64x64_S64x64_S64x128_d1 (ix2 d (hi e)) rfl rfl (ix2 d e)
    (fun b hb => by match b with | ⟨0, _⟩ => rfl | ⟨1, _⟩ => exact absurd rfl hb)
    (by show e.val + 64 = 64 + e.val; omega)

/-- Two 64 × 128 slabs one above the other, read in the upper slab. -/
theorem rows_upper (P Q : FVec Ideal S64x128 .f32) (d : Fin 64) (q : Fin 128) :
    concatenate S128x128 0 [⟨S64x128, P⟩, ⟨S64x128, Q⟩] concatenates_S64x128_S64x128_S128x128_d0 (ix2 (lo d) q) = P (ix2 d q) :=
  concatenate_pair_apply_left 0 P Q concatenates_S64x128_S64x128_S128x128_d0 (ix2 (lo d) q) rfl (ix2 d q)
    (fun b => by match b with | ⟨0, _⟩ => rfl | ⟨1, _⟩ => rfl)

/-- Two 64 × 128 slabs one above the other, read in the lower slab. -/
theorem rows_lower (P Q : FVec Ideal S64x128 .f32) (d : Fin 64) (q : Fin 128) :
    concatenate S128x128 0 [⟨S64x128, P⟩, ⟨S64x128, Q⟩] concatenates_S64x128_S64x128_S128x128_d0 (ix2 (hi d) q) = Q (ix2 d q) :=
  concatenate_pair_apply_right 0 P Q concatenates_S64x128_S64x128_S128x128_d0 (ix2 (hi d) q) rfl rfl (ix2 d q)
    (fun b hb => by match b with | ⟨0, _⟩ => exact absurd rfl hb | ⟨1, _⟩ => rfl)
    (by show d.val + 64 = 64 + d.val; omega)

/-! ## A block diagonal matrix at an entry -/

theorem blockDiag_lo_lo (A Z : FVec Ideal S64x64 .f32) (d e : Fin 64) : blockDiag A Z (ix2 (lo d) (lo e)) = A (ix2 d e) := by
  unfold blockDiag; rw [rows_upper, cols_left]
theorem blockDiag_lo_hi (A Z : FVec Ideal S64x64 .f32) (d e : Fin 64) : blockDiag A Z (ix2 (lo d) (hi e)) = Z (ix2 d e) := by
  unfold blockDiag; rw [rows_upper, cols_right]
theorem blockDiag_hi_lo (A Z : FVec Ideal S64x64 .f32) (d e : Fin 64) : blockDiag A Z (ix2 (hi d) (lo e)) = Z (ix2 d e) := by
  unfold blockDiag; rw [rows_lower, cols_left]
theorem blockDiag_hi_hi (A Z : FVec Ideal S64x64 .f32) (d e : Fin 64) : blockDiag A Z (ix2 (hi d) (hi e)) = A (ix2 d e) := by
  unfold blockDiag; rw [rows_lower, cols_right]

/-- A filled block holds its word everywhere. -/
theorem fill_apply (b : BitVec 32) (j : S64x64.Idx) : fill b j = Ideal.ofBits .f32 b := by
  unfold fill
  exact broadcastInDim_apply _ bcast_S_S64x64 (constant (F := Ideal) S_ .f32 b) j (fun a => a.elim0) (fun a => a.elim0)

/-- The transposed prototypes at `(d, u)` are the prototypes at `(u, d)`. -/
theorem transposed_apply (w : FVec Ideal S64x64 .f32) (d u : Fin 64) :
    transpose S64x64 [1, 0] w transposes_S64x64_S64x64_1_0 (ix2 d u) = w (ix2 u d) :=
  transpose_apply [1, 0] w transposes_S64x64_S64x64_1_0 (ix2 d u) (ix2 u d)
    (fun b => by match b with | ⟨0, _⟩ => rfl | ⟨1, _⟩ => rfl)

/-! ## The two matrices and the row of norms -/

theorem protoDiag_lo_lo (w : FVec Ideal S64x64 .f32) (d u : Fin 64) : protoDiag w (ix2 (lo d) (lo u)) = w (ix2 u d) := by
  unfold protoDiag; rw [blockDiag_lo_lo, transposed_apply]
theorem protoDiag_hi_hi (w : FVec Ideal S64x64 .f32) (d u : Fin 64) : protoDiag w (ix2 (hi d) (hi u)) = w (ix2 u d) := by
  unfold protoDiag; rw [blockDiag_hi_hi, transposed_apply]
theorem protoDiag_lo_hi (w : FVec Ideal S64x64 .f32) (d u : Fin 64) : protoDiag w (ix2 (lo d) (hi u)) = 0 := by
  unfold protoDiag; rw [blockDiag_lo_hi, fill_apply, Ideal.ofBits_zero_f32]
theorem protoDiag_hi_lo (w : FVec Ideal S64x64 .f32) (d u : Fin 64) : protoDiag w (ix2 (hi d) (lo u)) = 0 := by
  unfold protoDiag; rw [blockDiag_hi_lo, fill_apply, Ideal.ofBits_zero_f32]

theorem onesDiag_lo_lo (d u : Fin 64) : onesDiag (ix2 (lo d) (lo u)) = 1 := by
  unfold onesDiag; rw [blockDiag_lo_lo, fill_apply, ofBits_one]
theorem onesDiag_hi_hi (d u : Fin 64) : onesDiag (ix2 (hi d) (hi u)) = 1 := by
  unfold onesDiag; rw [blockDiag_hi_hi, fill_apply, ofBits_one]
theorem onesDiag_lo_hi (d u : Fin 64) : onesDiag (ix2 (lo d) (hi u)) = 0 := by
  unfold onesDiag; rw [blockDiag_lo_hi, fill_apply, Ideal.ofBits_zero_f32]
theorem onesDiag_hi_lo (d u : Fin 64) : onesDiag (ix2 (hi d) (lo u)) = 0 := by
  unfold onesDiag; rw [blockDiag_hi_lo, fill_apply, Ideal.ofBits_zero_f32]

/-- The squared norm of prototype `u`: the word of 0.0 plus the sum of the squares of its 64 entries. -/
theorem protoNorms_apply (w : FVec Ideal S64x64 .f32) (u : Fin 64) :
    protoNorms w (ix1 u) = zero + ∑ d : Fin 64, w (ix2 u d) * w (ix2 u d) := by
  unfold protoNorms
  simp only [Host.reduceAdd, Ideal.hostReduceAdd_def]
  rw [Ideal.hostReduceAdd_single reducesTo_S64x64_S64_d1 (by decide)]
  refine congrArg₂ (· + ·) rfl (Finset.sum_congr rfl fun k _ => ?_)
  exact congrArg (mulf w w) (funext fun a => Fin.ext (by match a with | ⟨0, _⟩ => rfl | ⟨1, _⟩ => rfl))

/-- The row of norms at a lane of the left half … -/
theorem normRow_lo (w : FVec Ideal S64x64 .f32) (u : Fin 64) :
    normRow w (ix2 (0 : Fin 1) (lo u)) = zero + ∑ d : Fin 64, w (ix2 u d) * w (ix2 u d) := by
  unfold normRow
  rw [broadcastInDim_apply _ bcast_S128_S1x128_1 _ (ix2 (0 : Fin 1) (lo u)) (ix1 (lo u))
      (fun a => by match a with | ⟨0, _⟩ => show u.val = if (128 : Nat) = 1 then 0 else u.val; rw [if_neg (by decide)]),
    concatenate_pair_apply_left 0 (protoNorms w) (protoNorms w) concatenates_S64_S64_S128_d0 (ix1 (lo u)) rfl (ix1 u)
      (fun b => by match b with | ⟨0, _⟩ => rfl),
    protoNorms_apply]

/-- … and at a lane of the right half. -/
theorem normRow_hi (w : FVec Ideal S64x64 .f32) (u : Fin 64) :
    normRow w (ix2 (0 : Fin 1) (hi u)) = zero + ∑ d : Fin 64, w (ix2 u d) * w (ix2 u d) := by
  unfold normRow
  rw [broadcastInDim_apply _ bcast_S128_S1x128_1 _ (ix2 (0 : Fin 1) (hi u)) (ix1 (hi u))
      (fun a => by match a with | ⟨0, _⟩ => show 64 + u.val = if (128 : Nat) = 1 then 0 else 64 + u.val; rw [if_neg (by decide)]),
    concatenate_pair_apply_right 0 (protoNorms w) (protoNorms w) concatenates_S64_S64_S128_d0 (ix1 (hi u)) rfl rfl (ix1 u)
      (fun b hb => by match b with | ⟨0, _⟩ => exact absurd rfl hb)
      (by show u.val + 64 = 64 + u.val; omega),
    protoNorms_apply]

/-! ## The two reshapes each way -/

/-- The folded table at row `r`, lane `k` is the table of points at the index with the same row-major position. -/
theorem foldedTable_apply (x : FVec Ideal S16x128x256x64 .f32) (r : Fin 262144) (k : Fin 128) (i : S16x128x256x64.Idx)
    (h : (((i 0).val * 128 + (i 1).val) * 256 + (i 2).val) * 64 + (i 3).val = r.val * 128 + k.val) :
    foldedTable x (ix2 r k) = x i := by
  unfold foldedTable
  have hn : (r.val * 128 + k.val) / 64 < 524288 := by have := r.isLt; have := k.isLt; omega
  have hd : (r.val * 128 + k.val) % 64 < 64 := Nat.mod_lt _ (by decide)
  rw [shapeCast_apply _ shapeCasts_S524288x64_S262144x128 (ix2 r k)
      (ix2 (⟨(r.val * 128 + k.val) / 64, hn⟩ : Fin 524288) (⟨(r.val * 128 + k.val) % 64, hd⟩ : Fin 64))
      (by rw [Shape.rowMajor_val_two, Shape.rowMajor_val_two]
          show (r.val * 128 + k.val) / 64 * 64 + (r.val * 128 + k.val) % 64 = r.val * 128 + k.val
          omega),
    shapeCast_apply _ shapeCasts_S16x128x256x64_S524288x64 _ i
      (by rw [Shape.rowMajor_val_four, Shape.rowMajor_val_two]
          show (((i 0).val * 128 + (i 1).val) * 256 + (i 2).val) * 64 + (i 3).val
            = (r.val * 128 + k.val) / 64 * 64 + (r.val * 128 + k.val) % 64
          omega)]

/-- The unfolded result at an index is the folded result at the row and lane with the same row-major position. -/
theorem unfolded_apply (Y : FVec Ideal S262144x128 .f32) (i : S16x128x256x64.Idx) (r : Fin 262144) (k : Fin 128)
    (h : (((i 0).val * 128 + (i 1).val) * 256 + (i 2).val) * 64 + (i 3).val = r.val * 128 + k.val) :
    unfolded Y i = Y (ix2 r k) := by
  unfold unfolded
  have hn : (r.val * 128 + k.val) / 64 < 524288 := by have := r.isLt; have := k.isLt; omega
  have hd : (r.val * 128 + k.val) % 64 < 64 := Nat.mod_lt _ (by decide)
  rw [shapeCast_apply _ shapeCasts_S524288x64_S16x128x256x64 i
      (ix2 (⟨(r.val * 128 + k.val) / 64, hn⟩ : Fin 524288) (⟨(r.val * 128 + k.val) % 64, hd⟩ : Fin 64))
      (by rw [Shape.rowMajor_val_four, Shape.rowMajor_val_two]
          show (r.val * 128 + k.val) / 64 * 64 + (r.val * 128 + k.val) % 64
            = (((i 0).val * 128 + (i 1).val) * 256 + (i 2).val) * 64 + (i 3).val
          omega),
    shapeCast_apply _ shapeCasts_S262144x128_S524288x64 _ (ix2 r k)
      (by rw [Shape.rowMajor_val_two, Shape.rowMajor_val_two]
          show r.val * 128 + k.val = (r.val * 128 + k.val) / 64 * 64 + (r.val * 128 + k.val) % 64
          omega)]

end Cert.SqDist.HostSide

end
-- ==== Proof.Bridge.lean ====
/-
  The folded computation gives the squared distances.

  Take a result index `i = (b, h, v, u)`; its point is row `n = (b·128 + h)·256 + v` of the table, which is the left
  half of folded row `n / 2` when `n` is even and its right half when `n` is odd, and the result is read at lane `u` of
  that half. In each of the two sums over the 128 lanes of the folded row, the block diagonal matrix is zero on the
  lanes of the other half (row and column in different halves), so that half contributes a sum of zeros, and on the
  point's own half it is 1 (for the squares) or entry `(u, d)` of the prototypes (for the inner product), so that half
  contributes the sum over the point's 64 entries. Only `a · 0 = 0`, `a · 1 = a`, `s + 0 = s` and `0 + s = s` are used:
  they hold for every extended real, so no entry needs to be finite.
-/
import proofs.«137258_j87582973100610_2_alg».proof.Proof.HostRead
import proofs.«137258_j87582973100610_2_alg».proof.Proof.DistSpec

set_option maxRecDepth 16384

noncomputable section

open scoped BigOperators

namespace Cert.SqDist.HostSide

open Idealize.ShloMosaic Idealize.ShloMosaic.ValueIdx
open Cert.KernelIdeal Cert.KernelIdeal.Gen Cert.SqDist

/-- A sum over a folded row whose right half is all zeros is the sum over its left half. -/
theorem sum_left_half (f : Fin 128 → EReal) (t : Fin 64 → EReal) (hl : ∀ d, f (lo d) = t d) (hd : ∀ d, f (hi d) = 0) :
    ∑ k : Fin 128, f k = ∑ d : Fin 64, t d := by
  rw [sum_halves, Finset.sum_congr rfl (fun d _ => hl d), Finset.sum_congr rfl (fun d _ => hd d),
    Finset.sum_const_zero, add_zero]

/-- A sum over a folded row whose left half is all zeros is the sum over its right half. -/
theorem sum_right_half (f : Fin 128 → EReal) (t : Fin 64 → EReal) (hl : ∀ d, f (hi d) = t d) (hd : ∀ d, f (lo d) = 0) :
    ∑ k : Fin 128, f k = ∑ d : Fin 64, t d := by
  rw [sum_halves, Finset.sum_congr rfl (fun d _ => hl d), Finset.sum_congr rfl (fun d _ => hd d),
    Finset.sum_const_zero, zero_add]

/-- Row `i 3` of the prototypes, entry `d`, by its two coordinates. -/
theorem wrow_eq (i : S16x128x256x64.Idx) (d : Fin 64) :
    wrow i d = ix2 (⟨(i 3).val, (i 3).isLt⟩ : Fin 64) d :=
  funext fun a => Fin.ext (by match a with | ⟨0, _⟩ => rfl | ⟨1, _⟩ => rfl)

/-- THE KERNEL'S RESULT is `sqDist` of its two arguments. -/
theorem kernel_eq (x : FVec Ideal S16x128x256x64 .f32) (w : FVec Ideal S64x64 .f32) : kernelResult x w = sqDist x w := by
  funext i
  have b0 : (i 0).val < 16 := (i 0).isLt
  have b1 : (i 1).val < 128 := (i 1).isLt
  have b2 : (i 2).val < 256 := (i 2).isLt
  have b3 : (i 3).val < 64 := (i 3).isLt
  obtain ⟨n, hn⟩ : ∃ n : Nat, n = ((i 0).val * 128 + (i 1).val) * 256 + (i 2).val := ⟨_, rfl⟩
  have hr : n / 2 < 262144 := by omega
  let r : Fin 262144 := ⟨n / 2, hr⟩
  let u : Fin 64 := ⟨(i 3).val, b3⟩
  unfold kernelResult sqDist
  obtain hpar | hpar : n % 2 = 0 ∨ n % 2 = 1 := by omega
  · -- an even point: the left half of its folded row
    rw [unfolded_apply _ i r (lo u)
      (by show (((i 0).val * 128 + (i 1).val) * 256 + (i 2).val) * 64 + (i 3).val = n / 2 * 128 + (i 3).val; omega)]
    show ((∑ k : Fin 128, (foldedTable x (ix2 r k) * foldedTable x (ix2 r k)) * onesDiag (ix2 k (lo u)))
        - two * ∑ k : Fin 128, foldedTable x (ix2 r k) * protoDiag w (ix2 k (lo u)))
      + normRow w (ix2 (0 : Fin 1) (lo u)) = _
    have hx : ∀ d : Fin 64, foldedTable x (ix2 r (lo d)) = x (xrow i d) := fun d =>
      foldedTable_apply x r (lo d) (xrow i d)
        (by show (((i 0).val * 128 + (i 1).val) * 256 + (i 2).val) * 64 + d.val = n / 2 * 128 + d.val; omega)
    have e1 : ∑ k : Fin 128, (foldedTable x (ix2 r k) * foldedTable x (ix2 r k)) * onesDiag (ix2 k (lo u))
        = ∑ d : Fin 64, x (xrow i d) * x (xrow i d) :=
      sum_left_half _ _ (fun d => by rw [hx d, onesDiag_lo_lo, mul_one]) (fun d => by rw [onesDiag_hi_lo, mul_zero])
    have e2 : ∑ k : Fin 128, foldedTable x (ix2 r k) * protoDiag w (ix2 k (lo u))
        = ∑ d : Fin 64, x (xrow i d) * w (wrow i d) :=
      sum_left_half _ _ (fun d => by rw [hx d, protoDiag_lo_lo, wrow_eq]) (fun d => by rw [protoDiag_hi_lo, mul_zero])
    rw [e1, e2, normRow_lo]
    simp only [wrow_eq, Ideal.ofBits_zero_f32, zero_add]
    rfl
  · -- an odd point: the right half of its folded row
    rw [unfolded_apply _ i r (hi u)
      (by show (((i 0).val * 128 + (i 1).val) * 256 + (i 2).val) * 64 + (i 3).val = n / 2 * 128 + (64 + (i 3).val); omega)]
    show ((∑ k : Fin 128, (foldedTable x (ix2 r k) * foldedTable x (ix2 r k)) * onesDiag (ix2 k (hi u)))
        - two * ∑ k : Fin 128, foldedTable x (ix2 r k) * protoDiag w (ix2 k (hi u)))
      + normRow w (ix2 (0 : Fin 1) (hi u)) = _
    have hx : ∀ d : Fin 64, foldedTable x (ix2 r (hi d)) = x (xrow i d) := fun d =>
      foldedTable_apply x r (hi d) (xrow i d)
        (by show (((i 0).val * 128 + (i 1).val) * 256 + (i 2).val) * 64 + d.val = n / 2 * 128 + (64 + d.val); omega)
    have e1 : ∑ k : Fin 128, (foldedTable x (ix2 r k) * foldedTable x (ix2 r k)) * onesDiag (ix2 k (hi u))
        = ∑ d : Fin 64, x (xrow i d) * x (xrow i d) :=
      sum_right_half _ _ (fun d => by rw [hx d, onesDiag_hi_hi, mul_one]) (fun d => by rw [onesDiag_lo_hi, mul_zero])
    have e2 : ∑ k : Fin 128, foldedTable x (ix2 r k) * protoDiag w (ix2 k (hi u))
        = ∑ d : Fin 64, x (xrow i d) * w (wrow i d) :=
      sum_right_half _ _ (fun d => by rw [hx d, protoDiag_hi_hi, wrow_eq]) (fun d => by rw [protoDiag_lo_hi, mul_zero])
    rw [e1, e2, normRow_hi]
    simp only [wrow_eq, Ideal.ofBits_zero_f32, zero_add]
    rfl

end Cert.SqDist.HostSide

end
-- ==== Proof.RefValue.lean ====
/-
  The reference computes `sqDist`.

  Its last stage, read at an index `i`, is the sum of the squares of the row of `x` that `i` lies on (started from the
  word of 0.0, kept as a column and broadcast back along the row), less the word of 2.0 times the inner product of that
  row with row `i 3` of `w`, plus the sum of the squares of that row of `w` (started from the word of 0.0 and broadcast
  over the first three axes): the three sums run over the same 64 entries that `sqDist` names.
-/
import proofs.«137258_j87582973100610_2_alg».proof.Proof.Gen.ReferenceIdeal.Read
import proofs.«137258_j87582973100610_2_alg».proof.Proof.DistSpec

noncomputable section

open scoped BigOperators

namespace Cert.SqDist.RefSide

open Idealize.ShloMosaic Idealize.ShloMosaic.ValueIdx
open Cert.ReferenceIdeal Cert.ReferenceIdeal.Gen Cert.ReferenceIdeal.Read Cert.SqDist

/-- The row of `x` summed for the column of squared norms, read back through the two broadcasts, is `i`'s row. -/
theorem norm_row (i : S16x128x256x64.Idx) (k : Fin 64) : idx_main_v1 (idx_main_v2 (idx_main_v8 i)) k = xrow i k :=
  funext fun a => Fin.ext (by match a with | ⟨0, _⟩ => rfl | ⟨1, _⟩ => rfl | ⟨2, _⟩ => rfl | ⟨3, _⟩ => rfl)

/-- The inner product's left operand runs over `i`'s row of `x` … -/
theorem dot_left (i : S16x128x256x64.Idx) (k : Fin 64) : lidx_main_v5 i k = xrow i k :=
  funext fun a => Fin.ext (by match a with | ⟨0, _⟩ => rfl | ⟨1, _⟩ => rfl | ⟨2, _⟩ => rfl | ⟨3, _⟩ => rfl)

/-- … and its right operand over row `i 3` of `w`. -/
theorem dot_right (i : S16x128x256x64.Idx) (k : Fin 64) : ridx_main_v5 i k = wrow i k :=
  funext fun a => Fin.ext (by match a with | ⟨0, _⟩ => rfl | ⟨1, _⟩ => rfl)

/-- The row of `w` summed for the squared norms, read back through the two broadcasts, is row `i 3`. -/
theorem proto_row (i : S16x128x256x64.Idx) (k : Fin 64) : idx_main_v4 (idx_main_v10 (idx_main_v11 i)) k = wrow i k :=
  funext fun a => Fin.ext (by match a with | ⟨0, _⟩ => rfl | ⟨1, _⟩ => rfl)

/-- THE REFERENCE'S RESULT is `sqDist` of its two arguments. -/
theorem result_eq (x : (⟨S16x128x256x64, .f32⟩ : BufTy).Contents (Elt Ideal)) (w : (⟨S64x64, .f32⟩ : BufTy).Contents (Elt Ideal)) :
    val_main_v12 (F := Ideal) x w = sqDist x w := by
  funext i
  rw [val_main_v12_apply, val_main_v9_apply, val_main_v8_apply, val_main_v2_apply, val_main_v1_apply, val_main_v7_apply,
    val_main_v6_apply, val_main_v5_apply, val_main_v11_apply, val_main_v10_apply, val_main_v4_apply]
  simp only [val_main_v0_apply, val_main_v3_apply, val_main_cst_apply, val_main_cst_0_apply, val_main_cst_1_apply,
    norm_row, dot_left, dot_right, proto_row, Ideal.addf_def, Ideal.subf_def, Ideal.mulf_def, Ideal.ofBits_def]
  rfl

end Cert.SqDist.RefSide

end
-- ==== Proof.lean ====
/-
  Squared Euclidean distances from every point of a table `x` (16·128·256 points of 64 entries) to each of 64
  prototypes `w`:  out (b, h, v, u) = ‖x (b, h, v, ·)‖² − 2 · ⟨x (b, h, v, ·), w (u, ·)⟩ + ‖w (u, ·)‖².

  The reference computes exactly this, with a sum over the last axis, a contraction of the last axes and a second sum.
  The kernel folds two consecutive points into one row of 128 lanes and multiplies the folded rows (and their squares)
  by 128 × 128 matrices that are block diagonal — the transposed prototypes, resp. ones, in the two 64 × 64 diagonal
  blocks, zeros in the other two — so that each half of a folded row is contracted with its own block only, adds the
  squared norms of the prototypes laid twice side by side, and unfolds the result again.

  Over the extended reals the two agree index by index: a sum over the 128 lanes of a folded row is the sum over its two
  halves, the half of the other point meets only zeros of the block diagonal matrix and vanishes, and the point's own
  half meets ones (giving the squared norm) or the prototype's entries (giving the inner product). The laws used —
  a · 0 = 0, a · 1 = a, adding 0 — hold for every extended real, so the finiteness of the inputs is never needed.

  The modules: `DistSpec` (the result `sqDist`, the folded expression `pairDist`, a sum split in halves), `KernelBody`
  (the body's store at an entry of a block), `KernelBlocks` (the 32 blocks of rows tile the folded result),
  `KernelHost` (the host operations around the region as terms of the arguments, and the kernel's run),
  `HostRead` (those terms at an index), `Bridge` (the folded computation is `sqDist`), `RefValue` (the reference's
  last stage is `sqDist`), `LibPlainMatmul` (a plain matrix product at an entry).
-/
import proofs.«137258_j87582973100610_2_alg».proof.Defs
import proofs.«137258_j87582973100610_2_alg».proof.Proof.Gen.Kernel
import proofs.«137258_j87582973100610_2_alg».proof.Proof.Gen.Kernel.Skeleton
import proofs.«137258_j87582973100610_2_alg».proof.Proof.Gen.Kernel.Launch
import proofs.«137258_j87582973100610_2_alg».proof.Proof.Gen.Kernel.Points
import proofs.«137258_j87582973100610_2_alg».proof.Proof.Gen.Kernel.Frame
import proofs.«137258_j87582973100610_2_alg».proof.Proof.Gen.KernelIdeal
import proofs.«137258_j87582973100610_2_alg».proof.Proof.Gen.KernelIdeal.Skeleton
import proofs.«137258_j87582973100610_2_alg».proof.Proof.Gen.KernelIdeal.Launch
import proofs.«137258_j87582973100610_2_alg».proof.Proof.Gen.KernelIdeal.Points
import proofs.«137258_j87582973100610_2_alg».proof.Proof.Gen.KernelIdeal.Frame
import proofs.«137258_j87582973100610_2_alg».proof.Proof.Gen.ReferenceIdeal
import proofs.«137258_j87582973100610_2_alg».proof.Proof.Gen.Pre_finite_inputs
import proofs.«137258_j87582973100610_2_alg».proof.Proof.Gen.ReferenceIdeal.Run
import proofs.«137258_j87582973100610_2_alg».proof.Proof.Gen.ReferenceIdeal.Read
import proofs.«137258_j87582973100610_2_alg».proof.Proof.Bridge
import proofs.«137258_j87582973100610_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: it runs, and its run leaves the arguments unchanged. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel over the extended reals rewrote no operation: there is nothing to preserve. -/
theorem preserves : Cert.preserves_Kernel_KernelIdeal := trivial

/-- From memories agreeing on `x` and `w`, both programs end with the table of squared distances `sqDist x w`. -/
theorem algebraic : Cert.algebraic_KernelIdeal_ReferenceIdeal := by
  intro m ρ m' ρ' _ hagree
  refine ⟨fun c => Cert.SqDist.sqDist
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩)
      (Cert.SqDist.HostSide.run m ρ)
    exact Cert.SqDist.HostSide.kernel_eq _ _
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v12_eq, Cert.SqDist.RefSide.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
